-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S100000x3 : Shape := ⟨2, ![100000, 3]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x256 .f32) (main_arg1 : IVec S100000x3 32) (main_arg2 : FVec F S256x256 .f32) (main_arg3 : FVec F S256 .f32) (main_arg4 : FVec F S256x256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x256 : Shape := ⟨2, ![50000, 256]⟩
abbrev S100000x3 : Shape := ⟨2, ![100000, 3]⟩
abbrev S256x256 : Shape := ⟨2, ![256, 256]⟩
abbrev S256 : Shape := ⟨1, ![256]⟩
abbrev S100000x1 : Shape := ⟨2, ![100000, 1]⟩
abbrev S100000 : Shape := ⟨1, ![100000]⟩
abbrev S600000 : Shape := ⟨1, ![600000]⟩
abbrev S_ : Shape := ⟨0, ![]⟩
abbrev S600000x1 : Shape := ⟨2, ![600000, 1]⟩
abbrev S600000x256 : Shape := ⟨2, ![600000, 256]⟩
abbrev S2000x256 : Shape := ⟨2, ![2000, 256]⟩
abbrev S1x256 : Shape := ⟨2, ![1, 256]⟩

abbrev nBuf : Space → Nat
  | .hbm => 30
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S100000x3, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S100000x1, .i32⟩
  | .hbm, ⟨7, _⟩ => ⟨S100000, .i32⟩
  | .hbm, ⟨8, _⟩ => ⟨S100000x1, .i32⟩
  | .hbm, ⟨9, _⟩ => ⟨S100000, .i32⟩
  | .hbm, ⟨10, _⟩ => ⟨S100000x1, .i32⟩
  | .hbm, ⟨11, _⟩ => ⟨S100000, .i32⟩
  | .hbm, ⟨12, _⟩ => ⟨S600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x256, .f32⟩
  | .hbm, ⟨23, _⟩ => ⟨S_, .f32⟩
  | .hbm, ⟨24, _⟩ => ⟨S50000x256, .f32⟩
  | .hbm, ⟨25, _⟩ => ⟨S600000x1, .i32⟩
  | .hbm, ⟨26, _⟩ => ⟨S50000x256, .f32⟩
  | .hbm, ⟨27, _⟩ => ⟨S256x256, .f32⟩
  | .hbm, ⟨28, _⟩ => ⟨S256x256, .f32⟩
  | .hbm, ⟨29, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S2000x256, .f32⟩
  | .local _ .vmem, ⟨9, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S100000x3_S100000x1_0_0 : S100000x3.Slices ![0, 0] S100000x1
  shapeCasts_S100000x1_S100000 : S100000x1.ShapeCasts S100000
  slices_S100000x3_S100000x1_0_1 : S100000x3.Slices ![0, 1] S100000x1
  slices_S100000x3_S100000x1_0_2 : S100000x3.Slices ![0, 2] S100000x1
  concatenates_S100000_S100000_S100000_S100000_S100000_S100000_S600000_d0 : Shape.Concatenates [S100000, S100000, S100000, S100000, S100000, S100000] S600000 0
  bcast_S_S600000 : S_.BroadcastsInDim S600000 (![] : Fin 0 → Fin S600000.rank)
  bcast_S600000_S600000x1_0 : S600000.BroadcastsInDim S600000x1 (![0] : Fin 1 → Fin S600000x1.rank)
  bcast_S_S50000x256 : S_.BroadcastsInDim S50000x256 (![] : Fin 0 → Fin S50000x256.rank)
  transposes_S256x256_S256x256_1_0 : S256x256.Transposes [1, 0] S256x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)

variable [Facts₀]

def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x256 : Shape := ⟨2, ![50000, 256]⟩
abbrev S100000x3 : Shape := ⟨2, ![100000, 3]⟩
abbrev S256x256 : Shape := ⟨2, ![256, 256]⟩
abbrev S256 : Shape := ⟨1, ![256]⟩
abbrev S100000x1 : Shape := ⟨2, ![100000, 1]⟩
abbrev S100000 : Shape := ⟨1, ![100000]⟩
abbrev S600000 : Shape := ⟨1, ![600000]⟩
abbrev S_ : Shape := ⟨0, ![]⟩
abbrev S600000x1 : Shape := ⟨2, ![600000, 1]⟩
abbrev S600000x256 : Shape := ⟨2, ![600000, 256]⟩
abbrev S1x256 : Shape := ⟨2, ![1, 256]⟩

abbrev nBuf : Space → Nat
  | .hbm => 38
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S100000x3, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S100000x1, .i32⟩
  | .hbm, ⟨7, _⟩ => ⟨S100000, .i32⟩
  | .hbm, ⟨8, _⟩ => ⟨S100000x1, .i32⟩
  | .hbm, ⟨9, _⟩ => ⟨S100000, .i32⟩
  | .hbm, ⟨10, _⟩ => ⟨S100000x1, .i32⟩
  | .hbm, ⟨11, _⟩ => ⟨S100000, .i32⟩
  | .hbm, ⟨12, _⟩ => ⟨S600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x256, .f32⟩
  | .hbm, ⟨23, _⟩ => ⟨S_, .f32⟩
  | .hbm, ⟨24, _⟩ => ⟨S50000x256, .f32⟩
  | .hbm, ⟨25, _⟩ => ⟨S600000x1, .i32⟩
  | .hbm, ⟨26, _⟩ => ⟨S50000x256, .f32⟩
  | .hbm, ⟨27, _⟩ => ⟨S256x256, .f32⟩
  | .hbm, ⟨28, _⟩ => ⟨S50000x256, .f32⟩
  | .hbm, ⟨29, _⟩ => ⟨S1x256, .f32⟩
  | .hbm, ⟨30, _⟩ => ⟨S50000x256, .f32⟩
  | .hbm, ⟨31, _⟩ => ⟨S50000x256, .f32⟩
  | .hbm, ⟨32, _⟩ => ⟨S256x256, .f32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  slices_S100000x3_S100000x1_0_0 : S100000x3.Slices ![0, 0] S100000x1
  shapeCasts_S100000x1_S100000 : S100000x1.ShapeCasts S100000
  slices_S100000x3_S100000x1_0_1 : S100000x3.Slices ![0, 1] S100000x1
  slices_S100000x3_S100000x1_0_2 : S100000x3.Slices ![0, 2] S100000x1
  concatenates_S100000_S100000_S100000_S100000_S100000_S100000_S600000_d0 : Shape.Concatenates [S100000, S100000, S100000, S100000, S100000, S100000] S600000 0
  bcast_S_S600000 : S_.BroadcastsInDim S600000 (![] : Fin 0 → Fin S600000.rank)
  bcast_S600000_S600000x1_0 : S600000.BroadcastsInDim S600000x1 (![0] : Fin 1 → Fin S600000x1.rank)
  bcast_S_S50000x256 : S_.BroadcastsInDim S50000x256 (![] : Fin 0 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []

variable [Facts₀]

def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.TilesBits.lean ====
/-
  The run of the fused two-projection kernel through its 25 grid points, and what it leaves behind.

  Before the region the host computes the neighbour aggregate (slices of the face table, two
  concatenations, a gather and a scatter-add) and the two transposed weight matrices; none of these
  operations writes an argument array. The region then visits the 25 row tiles of 2000 rows: at tile
  `t` the body reads the tile's rows of the features and of the aggregate, the two whole transposed
  weight matrices and the two whole bias vectors, and overwrites the tile's 2000 x 256 output block with
  one value computed from those six reads. Every output block is therefore one pure function of the six
  input blocks at the same tile, the inputs are never written, and the frame follows: the run ends, no
  access leaves its buffer, and the six argument arrays end as they started.
-/
import proofs.«126727_j16999480558222_2_alg».proof.Proof.Gen.Kernel.Launch
import proofs.«126727_j16999480558222_2_alg».proof.Proof.Gen.Kernel.Skeleton
import proofs.«126727_j16999480558222_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- The contents of core `c`'s buffers once the host operations in front of the region have run. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is the result of none of the host operations is found as it was launched. -/
theorem V_of_not_written (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-- The host operations write their own results only: argument 0 is found as launched. -/
theorem V_main_arg0 (c : Dev nD) : V m c main_arg0 = m ((c : Thread nD τ).loc main_arg0) :=
  V_of_not_written m c main_arg0 (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))
/-- The host operations write their own results only: argument 1 is found as launched. -/
theorem V_main_arg1 (c : Dev nD) : V m c main_arg1 = m ((c : Thread nD τ).loc main_arg1) :=
  V_of_not_written m c main_arg1 (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))
/-- The host operations write their own results only: argument 2 is found as launched. -/
theorem V_main_arg2 (c : Dev nD) : V m c main_arg2 = m ((c : Thread nD τ).loc main_arg2) :=
  V_of_not_written m c main_arg2 (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))
/-- The host operations write their own results only: argument 3 is found as launched. -/
theorem V_main_arg3 (c : Dev nD) : V m c main_arg3 = m ((c : Thread nD τ).loc main_arg3) :=
  V_of_not_written m c main_arg3 (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))
/-- The host operations write their own results only: argument 4 is found as launched. -/
theorem V_main_arg4 (c : Dev nD) : V m c main_arg4 = m ((c : Thread nD τ).loc main_arg4) :=
  V_of_not_written m c main_arg4 (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))
/-- The host operations write their own results only: argument 5 is found as launched. -/
theorem V_main_arg5 (c : Dev nD) : V m c main_arg5 = m ((c : Thread nD τ).loc main_arg5) :=
  V_of_not_written m c main_arg5 (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))

/-! ## The tiles -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 is only read: whether or not a tile fetches it, its staging buffer holds its block there
    (a window that is not fetched has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 is only read: whether or not a tile fetches it, its staging buffer holds its block there
    (a window that is not fetched has not moved). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is only read: whether or not a tile fetches it, its staging buffer holds its block there
    (a window that is not fetched has not moved). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 is only read: whether or not a tile fetches it, its staging buffer holds its block there
    (a window that is not fetched has not moved). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 is only read: whether or not a tile fetches it, its staging buffer holds its block there
    (a window that is not fetched has not moved). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 is only read: whether or not a tile fetches it, its staging buffer holds its block there
    (a window that is not fetched has not moved). -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end of a run -/

/-- From a run that ends with every window's array at what the proof data says and every other buffer as
    the region found it: the six argument arrays end as launched. Arguments 0, 3 and 5 are arrays of input
    windows (never written back), arguments 1, 2 and 4 are arrays of no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).1 5).trans (((dats 0 c).arrAt_in 5 rfl _).trans ((hA c 5).trans (V_main_arg5 m c)))⟩) h

/-! ## One tile of the body -/

/-- The whole 2000 x 256 tile, the whole 256 x 256 matrix, the whole 256-vector: the body's accesses. -/
abbrev rTile : Rect S2000x256 := Rect.unit (s := S2000x256) ![0, 0] S2000x256.size inb_S2000x256_S2000x256_0_0
abbrev rMat : Rect S256x256 := Rect.unit (s := S256x256) ![0, 0] S256x256.size inb_S256x256_S256x256_0_0
abbrev rVec : Rect S256 := Rect.unit (s := S256) ![0] S256.size inb_S256_S256_0

/-- The output tile after the body, from the six input blocks (features, aggregate, first weights, first
    bias, second weights, second bias, in window order): the one whole-tile store of the body's value. -/
def outTile (x0 x1 : Vec F S2000x256 .f32) (x2 : Vec F S256x256 .f32) (x3 : Vec F S256 .f32) (x4 : Vec F S256x256 .f32) (x5 : Vec F S256 .f32) :
    Vec F S2000x256 .f32 :=
  View.canon [⟨rTile, k0_pay1 (View.ld x0 rTile) (View.ld x1 rTile) (View.ld x2 rMat) (View.ld x4 rMat) (View.ld x3 rVec) (View.ld x5 rVec)⟩]

/-- The one store covers the tile. -/
theorem outTile_cover (p0 : Vec F S2000x256 .f32) (y : S2000x256.Idx) :
    ∃ pc ∈ ([⟨rTile, p0⟩] : List (View.Piece (Elt F) S2000x256 .f32)), y ∈ pc.1.set :=
  View.cover_of_tiled [⟨rTile, p0⟩] S2000x256.size (by rfl) y

set_option maxHeartbeats 1000000 in
/-- The body on seven whole staging buffers — the six inputs at contents `x0 … x5`, the output at anything —
    returns with the inputs as they were and the output at `outTile` of them. -/
theorem sound_kernel (c : Dev nD) (E : Set ℕ) (i : grid0.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256 .f32) (harg4 : arg4.IsWhole)
    (arg5 : Memref sig .tc .vmem S256x256 .f32) (harg5 : arg5.IsWhole) (arg6 : Memref sig .tc .vmem S256 .f32) (harg6 : arg6.IsWhole)
    (arg7 : Memref sig .tc .vmem S2000x256 .f32) (harg7 : arg7.IsWhole)
    (x0 x1 : Vec F S2000x256 .f32) (x2 : Vec F S256x256 .f32) (x3 : Vec F S256 .f32) (x4 : Vec F S256x256 .f32) (x5 : Vec F S256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outTile x0 x1 x2 x3 x4 x5)) -∗ K ⟨⟩))
      ⊢ wp frame (wpE (defs₀ (F := F)) Variants.none c none) E
          (cc0__fused_linear_kernel i arg1 harg1 arg2 harg2 arg3 harg3 arg4 harg4 arg5 harg5 arg6 harg6 arg7 harg7) K := by
  simp only [cc0__fused_linear_kernel_eq_skeleton]; unfold cc0__fused_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outTile_cover _)

/-! ## The proof data of the pipeline -/

/-- On core `c`: the arrays as the region finds them; after tile `t` each input's buffer still at its block and the
    output's at `outTile` of the six input blocks; nothing else is kept between tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outTile (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = outTile (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body at a tile -/

/-- What the body is handed at tile `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At every tile the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, faulting nowhere, with each window's array at what the
    proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run ends, nothing faults, the six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Tiles

end
-- ==== Proof.TilesIdeal.lean ====
/-
  The run of the fused two-projection kernel through its 25 grid points, and what it leaves behind.

  Before the region the host computes the neighbour aggregate (slices of the face table, two
  concatenations, a gather and a scatter-add) and the two transposed weight matrices; none of these
  operations writes an argument array. The region then visits the 25 row tiles of 2000 rows: at tile
  `t` the body reads the tile's rows of the features and of the aggregate, the two whole transposed
  weight matrices and the two whole bias vectors, and overwrites the tile's 2000 x 256 output block with
  one value computed from those six reads. Every output block is therefore one pure function of the six
  input blocks at the same tile, the inputs are never written, and the frame follows: the run ends, no
  access leaves its buffer, and the six argument arrays end as they started.
-/
import proofs.«126727_j16999480558222_2_alg».proof.Proof.Gen.KernelIdeal.Launch
import proofs.«126727_j16999480558222_2_alg».proof.Proof.Gen.KernelIdeal.Skeleton
import proofs.«126727_j16999480558222_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- The contents of core `c`'s buffers once the host operations in front of the region have run. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is the result of none of the host operations is found as it was launched. -/
theorem V_of_not_written (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-- The host operations write their own results only: argument 0 is found as launched. -/
theorem V_main_arg0 (c : Dev nD) : V m c main_arg0 = m ((c : Thread nD τ).loc main_arg0) :=
  V_of_not_written m c main_arg0 (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))
/-- The host operations write their own results only: argument 1 is found as launched. -/
theorem V_main_arg1 (c : Dev nD) : V m c main_arg1 = m ((c : Thread nD τ).loc main_arg1) :=
  V_of_not_written m c main_arg1 (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))
/-- The host operations write their own results only: argument 2 is found as launched. -/
theorem V_main_arg2 (c : Dev nD) : V m c main_arg2 = m ((c : Thread nD τ).loc main_arg2) :=
  V_of_not_written m c main_arg2 (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))
/-- The host operations write their own results only: argument 3 is found as launched. -/
theorem V_main_arg3 (c : Dev nD) : V m c main_arg3 = m ((c : Thread nD τ).loc main_arg3) :=
  V_of_not_written m c main_arg3 (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))
/-- The host operations write their own results only: argument 4 is found as launched. -/
theorem V_main_arg4 (c : Dev nD) : V m c main_arg4 = m ((c : Thread nD τ).loc main_arg4) :=
  V_of_not_written m c main_arg4 (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))
/-- The host operations write their own results only: argument 5 is found as launched. -/
theorem V_main_arg5 (c : Dev nD) : V m c main_arg5 = m ((c : Thread nD τ).loc main_arg5) :=
  V_of_not_written m c main_arg5 (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))

/-! ## The tiles -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 is only read: whether or not a tile fetches it, its staging buffer holds its block there
    (a window that is not fetched has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 is only read: whether or not a tile fetches it, its staging buffer holds its block there
    (a window that is not fetched has not moved). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is only read: whether or not a tile fetches it, its staging buffer holds its block there
    (a window that is not fetched has not moved). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 is only read: whether or not a tile fetches it, its staging buffer holds its block there
    (a window that is not fetched has not moved). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 is only read: whether or not a tile fetches it, its staging buffer holds its block there
    (a window that is not fetched has not moved). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 is only read: whether or not a tile fetches it, its staging buffer holds its block there
    (a window that is not fetched has not moved). -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end of a run -/

/-- From a run that ends with every window's array at what the proof data says and every other buffer as
    the region found it: the six argument arrays end as launched. Arguments 0, 3 and 5 are arrays of input
    windows (never written back), arguments 1, 2 and 4 are arrays of no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).1 5).trans (((dats 0 c).arrAt_in 5 rfl _).trans ((hA c 5).trans (V_main_arg5 m c)))⟩) h

/-! ## One tile of the body -/

/-- The whole 2000 x 256 tile, the whole 256 x 256 matrix, the whole 256-vector: the body's accesses. -/
abbrev rTile : Rect S2000x256 := Rect.unit (s := S2000x256) ![0, 0] S2000x256.size inb_S2000x256_S2000x256_0_0
abbrev rMat : Rect S256x256 := Rect.unit (s := S256x256) ![0, 0] S256x256.size inb_S256x256_S256x256_0_0
abbrev rVec : Rect S256 := Rect.unit (s := S256) ![0] S256.size inb_S256_S256_0

/-- The output tile after the body, from the six input blocks (features, aggregate, first weights, first
    bias, second weights, second bias, in window order): the one whole-tile store of the body's value. -/
def outTile (x0 x1 : Vec F S2000x256 .f32) (x2 : Vec F S256x256 .f32) (x3 : Vec F S256 .f32) (x4 : Vec F S256x256 .f32) (x5 : Vec F S256 .f32) :
    Vec F S2000x256 .f32 :=
  View.canon [⟨rTile, k0_pay1 (View.ld x0 rTile) (View.ld x1 rTile) (View.ld x2 rMat) (View.ld x4 rMat) (View.ld x3 rVec) (View.ld x5 rVec)⟩]

/-- The one store covers the tile. -/
theorem outTile_cover (p0 : Vec F S2000x256 .f32) (y : S2000x256.Idx) :
    ∃ pc ∈ ([⟨rTile, p0⟩] : List (View.Piece (Elt F) S2000x256 .f32)), y ∈ pc.1.set :=
  View.cover_of_tiled [⟨rTile, p0⟩] S2000x256.size (by rfl) y

set_option maxHeartbeats 1000000 in
/-- The body on seven whole staging buffers — the six inputs at contents `x0 … x5`, the output at anything —
    returns with the inputs as they were and the output at `outTile` of them. -/
theorem sound_kernel (c : Dev nD) (E : Set ℕ) (i : grid0.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256 .f32) (harg4 : arg4.IsWhole)
    (arg5 : Memref sig .tc .vmem S256x256 .f32) (harg5 : arg5.IsWhole) (arg6 : Memref sig .tc .vmem S256 .f32) (harg6 : arg6.IsWhole)
    (arg7 : Memref sig .tc .vmem S2000x256 .f32) (harg7 : arg7.IsWhole)
    (x0 x1 : Vec F S2000x256 .f32) (x2 : Vec F S256x256 .f32) (x3 : Vec F S256 .f32) (x4 : Vec F S256x256 .f32) (x5 : Vec F S256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outTile x0 x1 x2 x3 x4 x5)) -∗ K ⟨⟩))
      ⊢ wp frame (wpE (defs₀ (F := F)) Variants.none c none) E
          (cc0__fused_linear_kernel i arg1 harg1 arg2 harg2 arg3 harg3 arg4 harg4 arg5 harg5 arg6 harg6 arg7 harg7) K := by
  simp only [cc0__fused_linear_kernel_eq_skeleton]; unfold cc0__fused_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outTile_cover _)

/-! ## The proof data of the pipeline -/

/-- On core `c`: the arrays as the region finds them; after tile `t` each input's buffer still at its block and the
    output's at `outTile` of the six input blocks; nothing else is kept between tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outTile (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = outTile (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body at a tile -/

/-- What the body is handed at tile `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At every tile the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, faulting nowhere, with each window's array at what the
    proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run ends, nothing faults, the six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Tiles

end
-- ==== Proof.TileEntry.lean ====
/-
  One tile of the kernel, entry by entry.

  The body's value for a tile is built from six reads: the tile's 2000 rows of features `v0` and of the
  aggregate `v2`, the two transposed weight matrices `v5` and `v8`, the two biases `v12` and `v17`. Roundings to
  the narrower float format are the identity on extended reals, a product into a zero accumulator is the
  plain sum over the contracted axis, and a bias reshaped to one row and repeated down the tile reads, at any
  row, the bias entry of the column. So at row `p` and column `q` of the tile the value is

      (Σ_k v0[p,k] · v5[k,q] + v12[q]) + (Σ_k v2[p,k] · v8[k,q] + v17[q]).
-/
import proofs.«126727_j16999480558222_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileEntry

open Idealize.ShloMosaic Idealize.ShloMosaic.ValueIdx Cert.KernelIdeal Cert.KernelIdeal.Gen

/-! ## The product of a tile with a weight matrix -/

/-- The coordinates of the two operands' indices in the product's sum: row of the output and summation
    index on the left, summation index and column of the output on the right. -/
theorem lhs_row (i : S2000x256.Idx) (s : dot_S2000x256_S256x256_S2000x256_1_0_0_1_n_n.contr.Idx) : (dot_S2000x256_S256x256_S2000x256_1_0_0_1_n_n.lhsIdx i s 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_sum (i : S2000x256.Idx) (s : dot_S2000x256_S256x256_S2000x256_1_0_0_1_n_n.contr.Idx) : (dot_S2000x256_S256x256_S2000x256_1_0_0_1_n_n.lhsIdx i s 1).val = (s ⟨0, by decide⟩).val :=
  dot_S2000x256_S256x256_S2000x256_1_0_0_1_n_n.lhsIdx_val_of_single rfl i s
theorem rhs_sum (i : S2000x256.Idx) (s : dot_S2000x256_S256x256_S2000x256_1_0_0_1_n_n.contr.Idx) : (dot_S2000x256_S256x256_S2000x256_1_0_0_1_n_n.rhsIdx i s 0).val = (s ⟨0, by decide⟩).val :=
  dot_S2000x256_S256x256_S2000x256_1_0_0_1_n_n.rhsIdx_val_of_single rfl i s
theorem rhs_col (i : S2000x256.Idx) (s : dot_S2000x256_S256x256_S2000x256_1_0_0_1_n_n.contr.Idx) : (dot_S2000x256_S256x256_S2000x256_1_0_0_1_n_n.rhsIdx i s 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A tile times a matrix into the zero accumulator, at row `p` and column `q`: the sum over the 256 shared
    indices of the products. -/
theorem product_at {φ₁ φ₂ : FTy} (l : FVec Ideal S2000x256 φ₁) (r : FVec Ideal S256x256 φ₂) (p : Fin 2000) (q : Fin 256) :
    matmul (F := Ideal) dot_S2000x256_S256x256_S2000x256_1_0_0_1_n_n none l r (constant S2000x256 .f32 0x00000000#32) (ix2 p q)
      = ∑ k : Fin 256, l (ix2 p k) * r (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_row _ _
    | ⟨1, _⟩ => exact (lhs_sum _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_sum _ _).trans hk
    | ⟨1, _⟩ => exact rhs_col _ _)
  rw [el, er]

/-! ## A bias repeated down the tile -/

/-- A 256-vector laid out as one row and repeated over the 2000 rows reads, at any row, its entry at the column. -/
theorem bias_at (v : FVec Ideal S256 .f32) (p : Fin 2000) (q : Fin 256) :
    broadcastTo S2000x256 (shapeCast S1x256 v shapeCasts_S256_S1x256) broadcasts_S1x256_S2000x256 (ix2 p q) = v (ix1 q) :=
  (broadcastTo_1b_ab_apply _ broadcasts_S1x256_S2000x256 p q).trans (shapeCast_a_1a_apply v shapeCasts_S256_S1x256 0 q)

/-! ## The tile's value -/

/-- Two sums of two vectors, added, at an index. -/
theorem sum_of_sums_at (A B C D : FVec Ideal S2000x256 .f32) (j : S2000x256.Idx) :
    addf (addf A B) (addf C D) j = (A j + B j) + (C j + D j) := rfl

/-- The body's value at row `p`, column `q` of the tile. -/
theorem value_at (v0 v2 : Vec Ideal S2000x256 .f32) (v5 v8 : Vec Ideal S256x256 .f32) (v12 v17 : Vec Ideal S256 .f32)
    (p : Fin 2000) (q : Fin 256) :
    k0_pay1 (F := Ideal) v0 v2 v5 v8 v12 v17 (ix2 p q)
      = ((∑ k : Fin 256, v0 (ix2 p k) * v5 (ix2 k q)) + v12 (ix1 q)) + ((∑ k : Fin 256, v2 (ix2 p k) * v8 (ix2 k q)) + v17 (ix1 q)) := by
  unfold k0_pay1
  refine (sum_of_sums_at _ _ _ _ _).trans ?_
  refine congrArg₂ (· + ·) (congrArg₂ (· + ·) ?_ (bias_at v12 p q)) (congrArg₂ (· + ·) ?_ (bias_at v17 p q))
  · refine (product_at _ _ p q).trans (Finset.sum_congr rfl fun k _ => ?_)
    rw [truncf_apply, truncf_apply, shapeCast_self]
  · refine (product_at _ _ p q).trans (Finset.sum_congr rfl fun k _ => ?_)
    rw [truncf_apply, truncf_apply, shapeCast_self, shapeCast_self]

end Cert.KernelIdeal.TileEntry

end
-- ==== Proof.Entry.lean ====
/-
  What the fused layer computes, entry by entry.

  With `x` the 50000 x 256 feature rows, `a` the 50000 x 256 neighbour aggregate, `u₁`, `u₂` the two
  256 x 256 weight matrices already transposed (so that column `c` of `uᵢ` lists the weights of output `c`)
  and `b₁`, `b₂` the two biases, the entry at row `r` and column `c` is

      (Σ_k x[r,k] · u₁[k,c] + b₁[c]) + (Σ_k a[r,k] · u₂[k,c] + b₂[c])

  over the extended reals: the first projection with its bias, plus the second projection with its bias, grouped
  exactly so. Nothing here is rearranged, so no finiteness of the inputs is ever used.
-/
import Idealize.ShloMosaic.PureOps.Ideal
import Idealize.ShloMosaic.Lib.ValueIdx

noncomputable section

open scoped BigOperators

namespace Cert.TwoProjections

open Idealize.ShloMosaic Idealize.ShloMosaic.ValueIdx

/-- The shapes of the rows, of a weight matrix and of a bias, as literals. -/
abbrev Rows : Shape := ⟨2, ![50000, 256]⟩
abbrev Weights : Shape := ⟨2, ![256, 256]⟩
abbrev Bias : Shape := ⟨1, ![256]⟩

/-- The entry at row `r`, column `c`. -/
def entry (x a : FVec Ideal Rows .f32) (u₁ : FVec Ideal Weights .f32) (b₁ : FVec Ideal Bias .f32)
    (u₂ : FVec Ideal Weights .f32) (b₂ : FVec Ideal Bias .f32) (r : Fin 50000) (c : Fin 256) : EReal :=
  ((∑ k : Fin 256, x (ix2 r k) * u₁ (ix2 k c)) + b₁ (ix1 c)) + ((∑ k : Fin 256, a (ix2 r k) * u₂ (ix2 k c)) + b₂ (ix1 c))

/-- The whole result array: every index is a row and a column. -/
def layer (x a : FVec Ideal Rows .f32) (u₁ : FVec Ideal Weights .f32) (b₁ : FVec Ideal Bias .f32)
    (u₂ : FVec Ideal Weights .f32) (b₂ : FVec Ideal Bias .f32) : FVec Ideal Rows .f32 :=
  fun i => entry x a u₁ b₁ u₂ b₂ (i 0) (i 1)

theorem layer_apply (x a : FVec Ideal Rows .f32) (u₁ : FVec Ideal Weights .f32) (b₁ : FVec Ideal Bias .f32)
    (u₂ : FVec Ideal Weights .f32) (b₂ : FVec Ideal Bias .f32) (r : Fin 50000) (c : Fin 256) :
    layer x a u₁ b₁ u₂ b₂ (ix2 r c) = entry x a u₁ b₁ u₂ b₂ r c := rfl

end Cert.TwoProjections

end
-- ==== Proof.WholeArray.lean ====
/-
  From the 25 tiles to the whole result array.

  Tile `t` of the output is rows `2000·t … 2000·t + 1999`, all 256 columns. The features and the aggregate move
  with it (their tile `t` is the same rows); the two weight matrices and the two biases never move (their one
  block is the whole array). Reading each input block where the output tile's rectangle says, the body's value
  at row `p`, column `q` of tile `t` is the layer's entry at row `2000·t + p`, column `q` of the arrays as the
  region finds them; the 25 tiles cover every row; so after the run the result array IS the layer.
-/
import proofs.«126727_j16999480558222_2_alg».proof.Proof.TilesIdeal
import proofs.«126727_j16999480558222_2_alg».proof.Proof.TileEntry
import proofs.«126727_j16999480558222_2_alg».proof.Proof.Entry
import Idealize.ShloMosaic.Lib.Pipeline.Value

noncomputable section

open scoped BigOperators

namespace Cert.KernelIdeal.Whole

open Cert.KernelIdeal Cert.KernelIdeal.Gen Cert.KernelIdeal.Tiles Cert.TwoProjections
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- Where each window's block sits at tile `t`: the output, the features and the aggregate at row-block `t`,
    column-block 0; the weights and the biases at block 0 (checked tile by tile). -/
theorem tile_indices : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-- The layer of the six arrays the region finds: features, aggregate, transposed first weights, first bias,
    transposed second weights, second bias. -/
def found (c : Dev nD) : FVec Ideal Rows .f32 :=
  layer (V m c main_arg0) (V m c main_v17) (V m c main_v18) (V m c main_arg3) (V m c main_v19) (V m c main_arg5)

/-! ## Each input block, read where the output tile's rectangle says -/

/-- Row `p` of tile `t` of the features is row `r = 2000·t + p` of the array. -/
theorem features_read (c : Dev nD) (t : Fin cfg0.N) (p : Fin 2000) (k : Fin 256) (r : Fin 50000) (hr : r.val = t.val * 2000 + p.val) :
    iblk m c 0 t (ix2 p k) = V m c main_arg0 (ix2 r k) := by
  obtain ⟨-, -, e0, e1, -⟩ := tile_indices t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 2000 + 1 * p.val = r.val; rw [e0]; omega
  | ⟨1, _⟩ => show win0_0.index t (1 : Fin 2) * 256 + 1 * k.val = k.val; rw [e1]; omega

/-- The same for the aggregate. -/
theorem aggregate_read (c : Dev nD) (t : Fin cfg0.N) (p : Fin 2000) (k : Fin 256) (r : Fin 50000) (hr : r.val = t.val * 2000 + p.val) :
    iblk m c 1 t (ix2 p k) = V m c main_v17 (ix2 r k) := by
  obtain ⟨-, -, -, -, e0, e1, -⟩ := tile_indices t
  show V m c main_v17 (((cfg0.win 1).blk t).view.emb (ix2 p k)) = V m c main_v17 (ix2 r k)
  refine congrArg (V m c main_v17) (funext fun a => Fin.ext ?_)
  match a with
  | ⟨0, _⟩ => show win0_1.index t (0 : Fin 2) * 2000 + 1 * p.val = r.val; rw [e0]; omega
  | ⟨1, _⟩ => show win0_1.index t (1 : Fin 2) * 256 + 1 * k.val = k.val; rw [e1]; omega

/-- The weight blocks are the whole matrices. -/
theorem weights1_read (c : Dev nD) (t : Fin cfg0.N) (k q q' : Fin 256) (hq : q'.val = q.val) :
    iblk m c 2 t (ix2 k q) = V m c main_v18 (ix2 k q') := by
  obtain ⟨-, -, -, -, -, -, e0, e1, -⟩ := tile_indices t
  show V m c main_v18 (((cfg0.win 2).blk t).view.emb (ix2 k q)) = V m c main_v18 (ix2 k q')
  refine congrArg (V m c main_v18) (funext fun a => Fin.ext ?_)
  match a with
  | ⟨0, _⟩ => show win0_2.index t (0 : Fin 2) * 256 + 1 * k.val = k.val; rw [e0]; omega
  | ⟨1, _⟩ => show win0_2.index t (1 : Fin 2) * 256 + 1 * q.val = q'.val; rw [e1]; omega

theorem weights2_read (c : Dev nD) (t : Fin cfg0.N) (k q q' : Fin 256) (hq : q'.val = q.val) :
    iblk m c 4 t (ix2 k q) = V m c main_v19 (ix2 k q') := by
  obtain ⟨-, -, -, -, -, -, -, -, -, e0, e1, -⟩ := tile_indices t
  show V m c main_v19 (((cfg0.win 4).blk t).view.emb (ix2 k q)) = V m c main_v19 (ix2 k q')
  refine congrArg (V m c main_v19) (funext fun a => Fin.ext ?_)
  match a with
  | ⟨0, _⟩ => show win0_4.index t (0 : Fin 2) * 256 + 1 * k.val = k.val; rw [e0]; omega
  | ⟨1, _⟩ => show win0_4.index t (1 : Fin 2) * 256 + 1 * q.val = q'.val; rw [e1]; omega

/-- The bias blocks are the whole vectors. -/
theorem bias1_read (c : Dev nD) (t : Fin cfg0.N) (q q' : Fin 256) (hq : q'.val = q.val) :
    iblk m c 3 t (ix1 q) = V m c main_arg3 (ix1 q') := by
  obtain ⟨-, -, -, -, -, -, -, -, e0, -⟩ := tile_indices t
  show V m c main_arg3 (((cfg0.win 3).blk t).view.emb (ix1 q)) = V m c main_arg3 (ix1 q')
  refine congrArg (V m c main_arg3) (funext fun a => Fin.ext ?_)
  match a with
  | ⟨0, _⟩ => show win0_3.index t (0 : Fin 1) * 256 + 1 * q.val = q'.val; rw [e0]; omega

theorem bias2_read (c : Dev nD) (t : Fin cfg0.N) (q q' : Fin 256) (hq : q'.val = q.val) :
    iblk m c 5 t (ix1 q) = V m c main_arg5 (ix1 q') := by
  obtain ⟨-, -, -, -, -, -, -, -, -, -, -, e0⟩ := tile_indices t
  show V m c main_arg5 (((cfg0.win 5).blk t).view.emb (ix1 q)) = V m c main_arg5 (ix1 q')
  refine congrArg (V m c main_arg5) (funext fun a => Fin.ext ?_)
  match a with
  | ⟨0, _⟩ => show win0_5.index t (0 : Fin 1) * 256 + 1 * q.val = q'.val; rw [e0]; omega

/-! ## What a tile writes back -/

/-- Tile `t` writes back block `t` of the layer of the arrays the region finds. -/
theorem written_back (c : Dev nD) (t : Fin cfg0.N) :
    (dats m 0 c).flushed 6 t = ((cfg0.win 6).blk t).view.read (Elt Ideal) (found m c) := by
  show (cfg0.win 6).cut (grid0.coords t) ((dats m 0 c).after 6 t) = _
  rw [after6]
  unfold outTile
  rw [View.canon_unit_zero zero2]
  simp only [View.ld_unit_zero (S := S2000x256) zero2, View.ld_unit_zero (S := S256x256) zero2, View.ld_unit_zero (S := S256) zero1]
  obtain ⟨e60, e61, -⟩ := tile_indices t
  funext j
  obtain ⟨p, q, rfl⟩ : ∃ (p : Fin 2000) (q : Fin 256), j = ix2 p q := ⟨j 0, j 1, eq_ix2 j⟩
  show k0_pay1 (F := Ideal) (iblk m c 0 t) (iblk m c 1 t) (iblk m c 2 t) (iblk m c 4 t) (iblk m c 3 t) (iblk m c 5 t) (ix2 p q)
    = found m c (((cfg0.win 6).blk t).view.emb (ix2 p q))
  refine (TileEntry.value_at _ _ _ _ _ _ p q).trans ?_
  have h0 : ((((cfg0.win 6).blk t).view.emb (ix2 p q)) 0).val = t.val * 2000 + p.val := by
    show win0_6.index t (0 : Fin 2) * 2000 + 1 * p.val = _; rw [e60]; omega
  have h1 : ((((cfg0.win 6).blk t).view.emb (ix2 p q)) 1).val = q.val := by
    show win0_6.index t (1 : Fin 2) * 256 + 1 * q.val = _; rw [e61]; omega
  unfold found layer entry
  exact congrArg₂ (· + ·)
    (congrArg₂ (· + ·)
      (Finset.sum_congr rfl fun k _ => congrArg₂ (· * ·) (features_read m c t p k _ h0) (weights1_read m c t k q _ h1))
      (bias1_read m c t q _ h1))
    (congrArg₂ (· + ·)
      (Finset.sum_congr rfl fun k _ => congrArg₂ (· * ·) (aggregate_read m c t p k _ h0) (weights2_read m c t k q _ h1))
      (bias2_read m c t q _ h1))

/-! ## The tiles cover the array -/

/-- An index lies in tile `t` iff each coordinate lies in the tile's range on its axis. -/
theorem mem_tile (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v20).slice (win0_6.rect t)).set ↔ _
  rw [View.set_slice_whole, Rect.mem_set_unit]
  exact Iff.rfl

/-- Row `r` lies in tile `r / 2000`, which is written back. -/
theorem covered (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  have hN : (i 0).val / 2000 < cfg0.N := by show (i 0).val / 2000 < grid0.N; rw [N_0]; omega
  obtain ⟨e60, e61, -⟩ := tile_indices ⟨(i 0).val / 2000, hN⟩
  refine ⟨⟨(i 0).val / 2000, hN⟩, flush0_6 _, ?_⟩
  rw [mem_tile]
  intro a
  match a with
  | ⟨0, _⟩ =>
    show win0_6.index ⟨(i 0).val / 2000, hN⟩ (0 : Fin 2) * 2000 ≤ (i 0).val ∧ (i 0).val < win0_6.index ⟨(i 0).val / 2000, hN⟩ (0 : Fin 2) * 2000 + 2000
    rw [e60]; show (i 0).val / 2000 * 2000 ≤ (i 0).val ∧ (i 0).val < (i 0).val / 2000 * 2000 + 2000; omega
  | ⟨1, _⟩ =>
    show win0_6.index ⟨(i 0).val / 2000, hN⟩ (1 : Fin 2) * 256 ≤ (i 1).val ∧ (i 1).val < win0_6.index ⟨(i 0).val / 2000, hN⟩ (1 : Fin 2) * 256 + 256
    rw [e61]; omega

/-! ## The result array after the run -/

/-- After the last tile the result array is the layer of the arrays the region finds. -/
theorem result_array (c : Dev nD) : (dats m 0 c).arrAt 6 cfg0.N = found m c :=
  (dats m 0 c).arrAt_eq_of_cover 6 _ (fun t _ => written_back m c t) covered

/-- The run, with the result array named and the arguments unchanged. -/
theorem run : θ_run defs (onTc (τ := τ) (main (F := Ideal))) ⟨m, fun _ => 0, ρ⟩ fun r => ∀ c : Dev nD,
      r.2.mem ((c : Thread nD τ).loc main_v20) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (result_array m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c)))⟩)
    (run_main m ρ)

end Cert.KernelIdeal.Whole

end
-- ==== Proof.HostSide.lean ====
/-
  What the host leaves for the region, in the reference's words.

  In front of the region the kernel's program runs the very operations with which the reference begins: the three
  columns of the face table, the two concatenations that list the receiver and the neighbour of each of the
  600000 directed pairs, the gather of the neighbours' feature rows and their scatter-add into 50000 zero rows;
  and the two transpositions of the weight matrices. So the aggregate array and the two transposed-weights arrays
  that the region finds are the reference's own stages of the same arguments. They are never opened: both sides
  carry them as the same three functions.
-/
import proofs.«126727_j16999480558222_2_alg».proof.Proof.TilesIdeal
import proofs.«126727_j16999480558222_2_alg».proof.Proof.Gen.ReferenceIdeal.Read
import Idealize.ShloMosaic.Lib.StableHlo.Run

noncomputable section

namespace Cert.KernelIdeal.HostSide

open Cert.KernelIdeal Cert.KernelIdeal.Gen Cert.KernelIdeal.Tiles
open Idealize.ShloMosaic Idealize.ShloMosaic.TcCoe Idealize.SL.Sem Idealize.ShloMosaic.StableHlo

variable (m : (ℓ : Loc nD τ sig) → Buf (Elt Ideal) ℓ)

set_option maxHeartbeats 2000000 in
/-- The aggregate the region finds is the reference's aggregate stage of the features and the face table. -/
theorem aggregate_found (c : Dev nD) :
    (V m c main_v17 : S50000x256.Idx → EReal)
      = Cert.ReferenceIdeal.Read.val_main_v17 (F := Ideal) (m ((c : Thread nD τ).loc main_arg0)) (m ((c : Thread nD τ).loc main_arg1)) := by
  dsimp only [V, hostOps0]
  after_results_simp
  rfl

/-- The first transposed weights the region finds are the reference's transposition stage of the first weights. -/
theorem weights1_found (c : Dev nD) :
    (V m c main_v18 : S256x256.Idx → EReal)
      = Cert.ReferenceIdeal.Read.val_main_v18 (F := Ideal) (m ((c : Thread nD τ).loc main_arg2)) := by
  dsimp only [V, hostOps0]
  after_results_simp
  rfl

/-- The second transposed weights likewise. -/
theorem weights2_found (c : Dev nD) :
    (V m c main_v19 : S256x256.Idx → EReal)
      = Cert.ReferenceIdeal.Read.val_main_v23 (F := Ideal) (m ((c : Thread nD τ).loc main_arg4)) := by
  dsimp only [V, hostOps0]
  after_results_simp
  rfl

end Cert.KernelIdeal.HostSide

end
-- ==== Proof.RefLayer.lean ====
/-
  The reference computes the layer.

  The reference applies the two projections on the host: each is a product of the 50000 rows (the features, or
  the neighbour aggregate) with a transposed weight matrix, plus a bias reshaped to one row and repeated over all
  rows; the two are then added. Read at row `r` and column `c`, a host product is the sum over the shared
  index of the products, and a repeated bias is the bias entry of the column: exactly the layer's entry, with
  the aggregate and the two transposed matrices left as the reference's own earlier stages.
-/
import proofs.«126727_j16999480558222_2_alg».proof.Proof.Gen.ReferenceIdeal.Read
import proofs.«126727_j16999480558222_2_alg».proof.Proof.Entry

noncomputable section

open scoped BigOperators

namespace Cert.ReferenceIdeal.Layer

open Idealize.ShloMosaic Idealize.ShloMosaic.ValueIdx Cert.ReferenceIdeal Cert.ReferenceIdeal.Read Cert.TwoProjections

/-- In a host product the left operand is read at the output's row and the summation index … -/
theorem left_index (i : S50000x256.Idx) (k : Fin 256) : lidx_main_v19 i k = ix2 (i 0) k :=
  funext fun a => Fin.ext (by match a with | ⟨0, _⟩ => rfl | ⟨1, _⟩ => rfl)
/-- … and the right operand at the summation index and the output's column (both products have this form). -/
theorem right_index (i : S50000x256.Idx) (k : Fin 256) : ridx_main_v19 i k = ix2 k (i 1) :=
  funext fun a => Fin.ext (by match a with | ⟨0, _⟩ => rfl | ⟨1, _⟩ => rfl)
theorem left_index' (i : S50000x256.Idx) (k : Fin 256) : lidx_main_v24 i k = ix2 (i 0) k :=
  funext fun a => Fin.ext (by match a with | ⟨0, _⟩ => rfl | ⟨1, _⟩ => rfl)
theorem right_index' (i : S50000x256.Idx) (k : Fin 256) : ridx_main_v24 i k = ix2 k (i 1) :=
  funext fun a => Fin.ext (by match a with | ⟨0, _⟩ => rfl | ⟨1, _⟩ => rfl)
/-- A repeated bias is read at the output's column. -/
theorem bias_index (i : S50000x256.Idx) : idx_main_v20 (idx_main_v21 i) = ix1 (i 1) :=
  funext fun a => Fin.ext (by match a with | ⟨0, _⟩ => rfl)
theorem bias_index' (i : S50000x256.Idx) : idx_main_v25 (idx_main_v26 i) = ix1 (i 1) :=
  funext fun a => Fin.ext (by match a with | ⟨0, _⟩ => rfl)

/-- The reference's result is the layer of the features, its own aggregate stage, its two transposed-weights
    stages and the two biases. -/
theorem result_eq (x0 : (⟨S50000x256, .f32⟩ : BufTy).Contents (Elt Ideal)) (x1 : (⟨S100000x3, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) :
    val_main_v28 (F := Ideal) x0 x1 x2 x3 x4 x5
      = layer x0 (val_main_v17 (F := Ideal) x0 x1) (val_main_v18 (F := Ideal) x2) x3 (val_main_v23 (F := Ideal) x4) x5 := by
  funext i
  rw [val_main_v28_apply, val_main_v22_apply, val_main_v27_apply, val_main_v19_apply, val_main_v24_apply,
    val_main_v21_apply, val_main_v20_apply, val_main_v26_apply, val_main_v25_apply]
  simp only [left_index, right_index, left_index', right_index', bias_index, bias_index', Ideal.addf_def]
  rfl

end Cert.ReferenceIdeal.Layer

end
-- ==== Proof.lean ====
/-
  A graph-convolution layer: out = (x · W₁ᵀ + b₁) + (aggr · W₂ᵀ + b₂), where `aggr` sums, for every vertex, the
  feature rows of its neighbours over all triangle faces.

  The kernel's program and the reference build `aggr` by the same host operations (column slices of the face
  table, two concatenations, a gather and a scatter-add) and transpose the two weight matrices the same way. The
  kernel then runs the two projections, the two bias additions and the final sum in one region over 25 tiles of
  2000 rows; the reference does them as whole-array host operations. Over the extended reals, where a change of
  float format is the identity and a product into a zero accumulator is the plain sum, tile `t` of the kernel's
  result at row `p`, column `q` is the entry

      (Σ_k x[r,k] · W₁ᵀ[k,q] + b₁[q]) + (Σ_k aggr[r,k] · W₂ᵀ[k,q] + b₂[q]),     r = 2000·t + p,

  which is the reference's entry at row `r`, column `q` term for term; the 25 tiles cover all 50000 rows. No sum is
  reordered and nothing is distributed or cancelled, so the finiteness of the inputs is never used.

  The three frames: the region only reads its six input windows and the host operations write only their own
  results, so every run ends, nothing faults, and the six argument arrays end as they started — for the kernel
  as printed, for its idealization, and (a host program with no region) for the reference. The idealization
  rewrote no operation, so it is the kernel's own text read over the extended reals.
-/
import proofs.«126727_j16999480558222_2_alg».proof.Defs
import proofs.«126727_j16999480558222_2_alg».proof.Proof.Gen.Kernel
import proofs.«126727_j16999480558222_2_alg».proof.Proof.Gen.KernelIdeal
import proofs.«126727_j16999480558222_2_alg».proof.Proof.Gen.ReferenceIdeal
import proofs.«126727_j16999480558222_2_alg».proof.Proof.Gen.ReferenceIdeal.Run
import proofs.«126727_j16999480558222_2_alg».proof.Proof.Gen.ReferenceIdeal.Read
import proofs.«126727_j16999480558222_2_alg».proof.Proof.Gen.Pre_finite_inputs
import proofs.«126727_j16999480558222_2_alg».proof.Proof.TilesBits
import proofs.«126727_j16999480558222_2_alg».proof.Proof.TilesIdeal
import proofs.«126727_j16999480558222_2_alg».proof.Proof.WholeArray
import proofs.«126727_j16999480558222_2_alg».proof.Proof.HostSide
import proofs.«126727_j16999480558222_2_alg».proof.Proof.RefLayer
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments unchanged. -/
theorem frame_kernel : Cert.frame_Kernel := fun m ρ _ => Cert.Kernel.Tiles.frame m ρ

/-- So does its idealization. -/
theorem frame_ideal : Cert.frame_KernelIdeal := fun m ρ _ => Cert.KernelIdeal.Tiles.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments, both programs end with the layer of the features, the
    reference's aggregate stage, its two transposed-weights stages and the two biases: the kernel's result
    array by its 25 tiles, the reference's by its stages read at an index. -/
theorem algebraic : Cert.algebraic_KernelIdeal_ReferenceIdeal := by
  intro m ρ m' ρ' _ hagree
  refine ⟨fun c => Cert.KernelIdeal.Whole.found m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.Layer.result_eq,
    (hagree c).1, (hagree c).2.1, (hagree c).2.2.1, (hagree c).2.2.2.1, (hagree c).2.2.2.2.1, (hagree c).2.2.2.2.2]
  show _ = Cert.KernelIdeal.Whole.found m c
  unfold Cert.KernelIdeal.Whole.found
  rw [Cert.KernelIdeal.HostSide.aggregate_found, Cert.KernelIdeal.HostSide.weights1_found, Cert.KernelIdeal.HostSide.weights2_found,
    Cert.KernelIdeal.Tiles.V_main_arg0, Cert.KernelIdeal.Tiles.V_main_arg3, Cert.KernelIdeal.Tiles.V_main_arg5]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
